-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x4096 : Shape := ⟨2, ![1024, 4096]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S1024x4096 .f32) (main_arg5 : FVec F S1024x4096 .f32) (main_arg6 : FVec F S4096 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S1024x4096 .f32) (main_arg5 : FVec F S1024x4096 .f32) (main_arg6 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_v13 main_v16
-- ==== Kernel.lean ====
abbrev S8192x1024 : Shape := ⟨2, ![8192, 1024]⟩
abbrev S1024x4096 : Shape := ⟨2, ![1024, 4096]⟩
abbrev S4096 : Shape := ⟨1, ![4096]⟩
abbrev S2048x4096 : Shape := ⟨2, ![2048, 4096]⟩
abbrev S1x4096 : Shape := ⟨2, ![1, 4096]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 13
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x4096, .f32⟩
  | .hbm, ⟨5, _⟩ => ⟨S1024x4096, .f32⟩
  | .hbm, ⟨6, _⟩ => ⟨S4096, .f32⟩
  | .hbm, ⟨7, _⟩ => ⟨S2048x4096, .f32⟩
  | .hbm, ⟨8, _⟩ => ⟨S2048x4096, .bf16⟩
  | .hbm, ⟨9, _⟩ => ⟨S1x4096, .f32⟩
  | .hbm, ⟨10, _⟩ => ⟨S8192x1024, .f32⟩
  | .hbm, ⟨11, _⟩ => ⟨S8192x1024, .f32⟩
  | .hbm, ⟨12, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2048x4096, .bf16⟩
  | .local _ .vmem, ⟨9, _⟩ => ⟨S1x4096, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S1024x4096_S1024x4096_S2048x4096_d0 : Shape.Concatenates [S1024x4096, S1024x4096] S2048x4096 0
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S256x2048_S256x1024_0_0 : ∀ a, (![0, 0] : Fin 2 → Nat) a + S256x1024.size a ≤ S256x2048.size a
  shapeCasts_S256x1024_S256x1024 : S256x1024.ShapeCasts S256x1024
  packedbf16_S256x2048_S256x1024_0_0 : (Rect.unit (s := S256x2048) ![0, 0] S256x1024.size inb_S256x2048_S256x1024_0_0).PackedRows (EltTy.packing .bf16)
  inb_S256x2048_S256x1024_0_1024 : ∀ a, (![0, 1024] : Fin 2 → Nat) a + S256x1024.size a ≤ S256x2048.size a
  packedbf16_S256x2048_S256x1024_0_1024 : (Rect.unit (s := S256x2048) ![0, 1024] S256x1024.size inb_S256x2048_S256x1024_0_1024).PackedRows (EltTy.packing .bf16)
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x2048_S256x2048_0_0 : ∀ a, (![0, 0] : Fin 2 → Nat) a + S256x2048.size a ≤ S256x2048.size a
  h_S256x2048 : 0 < S256x2048.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x4096.size a ≤ S2048x4096.size a
  hwx0_4 : ∀ i : grid0.Coords, EltTy.bits .bf16 = 32 ∨ (Rect.block (s := S2048x4096) S2048x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_2) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x4096, .f32⟩
  | .hbm, ⟨5, _⟩ => ⟨S1024x4096, .f32⟩
  | .hbm, ⟨6, _⟩ => ⟨S4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LibTwoCols.lean ====
/-
  A buffer of `M × N` entries filled by two column-block stores, read back at an entry.

  A kernel that wants the row `[u[p,·] | v[p,·]]` as ONE operand stores an `M × N₁` block `u` at column offset `0` of
  a scratch buffer and an `M × N₂` block `v` at column offset `N₁`, then loads the whole buffer. What the load reads
  is the canonical contents of the two stores: at `(p, k)` with `k < N₁` the first block at `(p, k)`, and at
  `(p, N₁ + k)` the second block at `(p, k)` — whatever the buffer held before, since the stores cover what is read
  and their two column ranges do not meet.
-/
import Idealize.ShloMosaic.Lib.ValueIdx
import Idealize.ShloMosaic.Lib.Pipeline.Value

noncomputable section

namespace Cert.Lib.TwoCols

open Idealize.ShloMosaic Idealize.ShloMosaic.ValueIdx

variable {Val : EltTy → Type} [∀ e, Nonempty (Val e)] {e : EltTy} {M N₁ N₂ N : Nat}

/-- An entry in the first `N₁` columns is outside the second block's rectangle. -/
theorem not_mem_right
    (inb₂ : ∀ a, (![0, N₁] : Fin 2 → Nat) a + (![M, N₂] : Fin 2 → Nat) a ≤ (⟨2, ![M, N]⟩ : Shape).size a)
    (p : Fin M) (k : Fin N₁) (k' : Fin N) (hk : k'.val = k.val) :
    (ix2 p k' : (⟨2, ![M, N]⟩ : Shape).Idx) ∉ (Rect.unit (s := ⟨2, ![M, N]⟩) ![0, N₁] ![M, N₂] inb₂).set := by
  rw [Rect.mem_set_unit]
  intro h
  have h1 : N₁ ≤ k'.val := (h 1).1
  have := k.isLt
  omega

/-- Where the first block's entry `(p, k)` sits in the buffer. -/
theorem emb_left
    (inb₁ : ∀ a, (![0, 0] : Fin 2 → Nat) a + (![M, N₁] : Fin 2 → Nat) a ≤ (⟨2, ![M, N]⟩ : Shape).size a)
    (p : Fin M) (k : Fin N₁) (k' : Fin N) (hk : k'.val = k.val) :
    (Rect.unit (s := ⟨2, ![M, N]⟩) ![0, 0] ![M, N₁] inb₁).emb (ix2 p k) = (ix2 p k' : (⟨2, ![M, N]⟩ : Shape).Idx) := by
  funext a
  apply Fin.ext
  rw [Rect.emb_apply]
  match a with
  | ⟨0, _⟩ => show 0 + 1 * p.val = p.val; omega
  | ⟨1, _⟩ => show 0 + 1 * k.val = k'.val; omega

/-- Where the second block's entry `(p, k)` sits in the buffer. -/
theorem emb_right
    (inb₂ : ∀ a, (![0, N₁] : Fin 2 → Nat) a + (![M, N₂] : Fin 2 → Nat) a ≤ (⟨2, ![M, N]⟩ : Shape).size a)
    (p : Fin M) (k : Fin N₂) (k' : Fin N) (hk : k'.val = N₁ + k.val) :
    (Rect.unit (s := ⟨2, ![M, N]⟩) ![0, N₁] ![M, N₂] inb₂).emb (ix2 p k) = (ix2 p k' : (⟨2, ![M, N]⟩ : Shape).Idx) := by
  funext a
  apply Fin.ext
  rw [Rect.emb_apply]
  match a with
  | ⟨0, _⟩ => show 0 + 1 * p.val = p.val; omega
  | ⟨1, _⟩ => show N₁ + 1 * k.val = k'.val; omega

/-- The stores' list as a run leaves it: the later store (the second block, at column offset `N₁`) first. -/
abbrev pieces (u : (⟨2, ![M, N₁]⟩ : Shape).Idx → Val e) (v : (⟨2, ![M, N₂]⟩ : Shape).Idx → Val e)
    (inb₁ : ∀ a, (![0, 0] : Fin 2 → Nat) a + (![M, N₁] : Fin 2 → Nat) a ≤ (⟨2, ![M, N]⟩ : Shape).size a)
    (inb₂ : ∀ a, (![0, N₁] : Fin 2 → Nat) a + (![M, N₂] : Fin 2 → Nat) a ≤ (⟨2, ![M, N]⟩ : Shape).size a) :
    List (View.Piece Val ⟨2, ![M, N]⟩ e) :=
  [⟨Rect.unit (s := ⟨2, ![M, N]⟩) ![0, N₁] ![M, N₂] inb₂, v⟩, ⟨Rect.unit (s := ⟨2, ![M, N]⟩) ![0, 0] ![M, N₁] inb₁, u⟩]

/-- An entry in the first `N₁` columns reads the first block. -/
theorem canon_left (u : (⟨2, ![M, N₁]⟩ : Shape).Idx → Val e) (v : (⟨2, ![M, N₂]⟩ : Shape).Idx → Val e)
    (inb₁ : ∀ a, (![0, 0] : Fin 2 → Nat) a + (![M, N₁] : Fin 2 → Nat) a ≤ (⟨2, ![M, N]⟩ : Shape).size a)
    (inb₂ : ∀ a, (![0, N₁] : Fin 2 → Nat) a + (![M, N₂] : Fin 2 → Nat) a ≤ (⟨2, ![M, N]⟩ : Shape).size a)
    (p : Fin M) (k : Fin N₁) (k' : Fin N) (hk : k'.val = k.val) :
    View.canon (pieces u v inb₁ inb₂) (ix2 p k') = u (ix2 p k) := by
  refine (View.canon_cons_of_not_mem
    (⟨Rect.unit (s := ⟨2, ![M, N]⟩) ![0, N₁] ![M, N₂] inb₂, v⟩ : View.Piece Val ⟨2, ![M, N]⟩ e)
    [⟨Rect.unit (s := ⟨2, ![M, N]⟩) ![0, 0] ![M, N₁] inb₁, u⟩] (not_mem_right inb₂ p k k' hk)).trans ?_
  rw [← emb_left inb₁ p k k' hk]
  exact View.canon_cons_emb (Rect.unit (s := ⟨2, ![M, N]⟩) ![0, 0] ![M, N₁] inb₁) u [] (ix2 p k)

/-- An entry in the last `N₂` columns reads the second block. -/
theorem canon_right (u : (⟨2, ![M, N₁]⟩ : Shape).Idx → Val e) (v : (⟨2, ![M, N₂]⟩ : Shape).Idx → Val e)
    (inb₁ : ∀ a, (![0, 0] : Fin 2 → Nat) a + (![M, N₁] : Fin 2 → Nat) a ≤ (⟨2, ![M, N]⟩ : Shape).size a)
    (inb₂ : ∀ a, (![0, N₁] : Fin 2 → Nat) a + (![M, N₂] : Fin 2 → Nat) a ≤ (⟨2, ![M, N]⟩ : Shape).size a)
    (p : Fin M) (k : Fin N₂) (k' : Fin N) (hk : k'.val = N₁ + k.val) :
    View.canon (pieces u v inb₁ inb₂) (ix2 p k') = v (ix2 p k) := by
  rw [← emb_right inb₂ p k k' hk]
  exact View.canon_cons_emb (Rect.unit (s := ⟨2, ![M, N]⟩) ![0, N₁] ![M, N₂] inb₂) v
    [⟨Rect.unit (s := ⟨2, ![M, N]⟩) ![0, 0] ![M, N₁] inb₁, u⟩] (ix2 p k)

/-- A load of the whole buffer after any stores reads their canonical contents, whatever view the buffer is seen
    through. -/
theorem readCov_whole {sig : RefSig} {κ : Kind} {sp : Space} (w : View sig κ sp ⟨2, ![M, N]⟩ e)
    (L : List (View.Piece Val ⟨2, ![M, N]⟩ e)) {off : Fin 2 → Nat} (hoff : off = fun _ => 0)
    (inb : ∀ a, off a + (⟨2, ![M, N]⟩ : Shape).size a ≤ (⟨2, ![M, N]⟩ : Shape).size a) :
    w.readCov L (Rect.unit (s := ⟨2, ![M, N]⟩) off (⟨2, ![M, N]⟩ : Shape).size inb).toLoadRect = View.canon L := by
  rw [View.readCov_eq_canon']
  exact View.ld_unit_zero hoff inb (View.canon L)

end Cert.Lib.TwoCols

end
-- ==== Proof.Pieces.lean ====
/-
  What one run of the kernel body leaves in its three output buffers, as values of the loaded blocks.

  The body first copies its two input blocks `x` and `h` (`256 × 1024` each), rounded to the narrow float format,
  side by side into a `256 × 2048` scratch buffer, then loads that buffer whole: the loaded row block is the canonical
  contents of the two column-block stores (`rowBlock`), whatever the scratch held before. Each output buffer is
  then filled by one store through its whole rectangle, so what it holds afterwards is that store's value: the
  hidden state, the cell state and the normaliser computed from the weight block, the row block, the bias row and
  the two state blocks.
-/
import proofs.«122230_j45921790328950_2_alg».proof.Proof.Gen.KernelIdeal.Frame
import proofs.«122230_j45921790328950_2_alg».proof.Proof.LibTwoCols
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The row block `[x | h]` the body loads back from its scratch buffer. -/
def rowBlock (x0 x1 : Vec F S256x1024 .f32) : Vec F S256x2048 .bf16 :=
  View.canon (Cert.Lib.TwoCols.pieces (k0_pay2 x0) (k0_pay3 x1) inb_S256x2048_S256x1024_0_0
    inb_S256x2048_S256x1024_0_1024)

section
variable (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S2048x4096 .bf16) (h5 : a5.IsWhole) (a6 : Memref sig .tc .vmem S1x4096 .f32) (h6 : a6.IsWhole) (a7 : Memref sig .tc .vmem S256x1024 .f32) (h7 : a7.IsWhole) (a8 : Memref sig .tc .vmem S256x1024 .f32) (h8 : a8.IsWhole) (a9 : Memref sig .tc .vmem S256x1024 .f32) (h9 : a9.IsWhole) (a10 : Memref sig .tc .vmem S256x2048 .bf16) (h10 : a10.IsWhole) (x0 x1 x2 x3 : Vec F S256x1024 .f32) (x4 : Vec F S2048x4096 .bf16) (x5 : Vec F S1x4096 .f32)

/-- The second output's buffer ends holding the new cell state of the loaded blocks. -/
theorem out7_eq : out0_A_7 c i a1 h1 a2 h2 a3 h3 a4 h4 a5 h5 a6 h6 a7 h7 a8 h8 a9 h9 a10 h10 x0 x1 x2 x3 x4 x5 = k0_pay8 x4 (rowBlock x0 x1) x5 x2 := by
  unfold out0_A_7
  rw [View.read_writes_eq_canon _ _ _ (cover0_A_7 c i a1 h1 a2 h2 a3 h3 a4 h4 a5 h5 a6 h6 a7 h7 a8 h8 a9 h9 a10 h10 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread,
    h6.read_unread, View.ld_unit_zero (S := S256x1024) hz, View.ld_unit_zero (S := S2048x4096) hz,
    View.ld_unit_zero (S := S1x4096) hz]
  rw [Cert.Lib.TwoCols.readCov_whole _ _ hz]
  rfl

/-- The third output's buffer ends holding the new normaliser of the loaded blocks. -/
theorem out8_eq : out0_A_8 c i a1 h1 a2 h2 a3 h3 a4 h4 a5 h5 a6 h6 a7 h7 a8 h8 a9 h9 a10 h10 x0 x1 x2 x3 x4 x5 = k0_pay9 x4 (rowBlock x0 x1) x5 x3 := by
  unfold out0_A_8
  rw [View.read_writes_eq_canon _ _ _ (cover0_A_8 c i a1 h1 a2 h2 a3 h3 a4 h4 a5 h5 a6 h6 a7 h7 a8 h8 a9 h9 a10 h10 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread,
    h6.read_unread, View.ld_unit_zero (S := S256x1024) hz, View.ld_unit_zero (S := S2048x4096) hz,
    View.ld_unit_zero (S := S1x4096) hz]
  rw [Cert.Lib.TwoCols.readCov_whole _ _ hz]
  rfl

/-- The first output's buffer ends holding the new hidden state of the loaded blocks. -/
theorem out6_eq : out0_A_6 c i a1 h1 a2 h2 a3 h3 a4 h4 a5 h5 a6 h6 a7 h7 a8 h8 a9 h9 a10 h10 x0 x1 x2 x3 x4 x5
    = k0_pay1 (k0_pay7 x4 (rowBlock x0 x1) x5) (k0_pay8 x4 (rowBlock x0 x1) x5 x2) (k0_pay9 x4 (rowBlock x0 x1) x5 x3)
        (k0_pay10 (F := F)) := by
  unfold out0_A_6
  rw [View.read_writes_eq_canon _ _ _ (cover0_A_6 c i a1 h1 a2 h2 a3 h3 a4 h4 a5 h5 a6 h6 a7 h7 a8 h8 a9 h9 a10 h10 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread,
    h6.read_unread, View.ld_unit_zero (S := S256x1024) hz, View.ld_unit_zero (S := S2048x4096) hz,
    View.ld_unit_zero (S := S1x4096) hz]
  rw [Cert.Lib.TwoCols.readCov_whole _ _ hz]
  rfl

end

end Cert.KernelIdeal.Pieces

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.Cell.lean ====
/-
  One step of an exponentially gated recurrent cell, entry by entry, on the extended reals.

  The step takes a batch of `M` rows: an input `x` and a hidden state `h` (each `M × 1024`), a cell state `c` and a
  normaliser `n` (each `M × 1024`), an input weight `W` and a recurrent weight `R` (each `1024 × 4096`) and a bias
  `b` of length `4096`. The pre-activation at row `p`, column `q` is

      pre p q = (∑ k, x[p,k] · W[k,q] + ∑ k, h[p,k] · R[k,q]) + b[q]

  and its `4096` columns are four gates of `1024` columns each, in the order z, i, f, o. With
  `σ a = 1 / (1 + e^(-a))` and the input gate `ι a = min (e^a) 50`, the new cell state, normaliser and hidden state
  at `(p, q)` are

      c' = σ(pre_f) · c + ι(pre_i) · tanh(pre_z)
      n' = σ(pre_f) · n + ι(pre_i)
      h' = σ(pre_o) · (c' / (n' + ε))

  Each of them depends on `x`, `h`, `c`, `n` only through row `p` (`cellAt_rows` …), so a block of rows of the result
  is the result of the block of rows. The two inner products may also be taken as ONE inner product of length `2048`
  of the row `[x[p,·] | h[p,·]]` with the column of `W` stacked on `R` (`pre_of_stacked`): a finite sum over
  `Fin 2048` is the sum of its first `1024` terms plus the sum of its last `1024`, which on the extended reals needs
  no finiteness.
-/
import Idealize.ShloMosaic.Lib.ValueIdx
import Idealize.ShloMosaic.PureOps.Ideal.Laws

noncomputable section

open scoped BigOperators

namespace Cert.Cell

open Idealize.ShloMosaic Idealize.ShloMosaic.ValueIdx

/-! ## The four gates' columns of the pre-activation -/

/-- Column `q` of the candidate `z`. -/
abbrev colZ (q : Fin 1024) : Fin 4096 := ⟨q.val, by have := q.isLt; omega⟩
/-- Column `q` of the input gate `i`. -/
abbrev colI (q : Fin 1024) : Fin 4096 := ⟨1024 + q.val, by have := q.isLt; omega⟩
/-- Column `q` of the forget gate `f`. -/
abbrev colF (q : Fin 1024) : Fin 4096 := ⟨2048 + q.val, by have := q.isLt; omega⟩
/-- Column `q` of the output gate `o`. -/
abbrev colO (q : Fin 1024) : Fin 4096 := ⟨3072 + q.val, by have := q.isLt; omega⟩

/-- Position `k` of the first half of a length-`2048` row. -/
abbrev lo (k : Fin 1024) : Fin 2048 := ⟨k.val, by have := k.isLt; omega⟩
/-- Position `k` of the second half of a length-`2048` row. -/
abbrev hi (k : Fin 1024) : Fin 2048 := ⟨1024 + k.val, by have := k.isLt; omega⟩

/-! ## The scalar step -/

/-- The clamp of the input gate, the float `50`. -/
def cap : EReal := Ideal.ofBits .f32 0x42480000#32
/-- The guard added to the normaliser before the division, the float nearest `1e-6`. -/
def eps : EReal := Ideal.ofBits .f32 0x358637BD#32

/-- The input gate: the exponential, clamped above. -/
def inGate (a : EReal) : EReal := min (Ideal.exp a) cap
/-- The new cell state from the three pre-activations it reads and the old cell state. -/
def cellNext (az ai af c : EReal) : EReal := Ideal.logistic af * c + inGate ai * Ideal.tanh az
/-- The new normaliser. -/
def normNext (ai af n : EReal) : EReal := Ideal.logistic af * n + inGate ai
/-- The new hidden state. -/
def hidNext (az ai af ao c n : EReal) : EReal :=
  Ideal.logistic ao * Ideal.div (cellNext az ai af c) (normNext ai af n + eps)

/-- The float word of `1.0` denotes `1`. -/
theorem one_f32 : Ideal.ofBits .f32 0x3F800000#32 = 1 := by
  simp [Ideal.ofBits, Ideal.ieee, -EReal.coe_mul]; norm_num

/-! ## The step on arrays of `M` rows -/

variable {M M' : Nat}

/-- The pre-activation at row `p`, column `q`. -/
def pre (x h : (⟨2, ![M, 1024]⟩ : Shape).Idx → EReal) (W R : (⟨2, ![1024, 4096]⟩ : Shape).Idx → EReal)
    (b : (⟨1, ![4096]⟩ : Shape).Idx → EReal) (p : Fin M) (q : Fin 4096) : EReal :=
  ((∑ k : Fin 1024, x (ix2 p k) * W (ix2 k q)) + ∑ k : Fin 1024, h (ix2 p k) * R (ix2 k q)) + b (ix1 q)

/-- The new cell state at `(p, q)`. -/
def cellAt (x h c : (⟨2, ![M, 1024]⟩ : Shape).Idx → EReal) (W R : (⟨2, ![1024, 4096]⟩ : Shape).Idx → EReal)
    (b : (⟨1, ![4096]⟩ : Shape).Idx → EReal) (p : Fin M) (q : Fin 1024) : EReal :=
  cellNext (pre x h W R b p (colZ q)) (pre x h W R b p (colI q)) (pre x h W R b p (colF q)) (c (ix2 p q))

/-- The new normaliser at `(p, q)`. -/
def normAt (x h n : (⟨2, ![M, 1024]⟩ : Shape).Idx → EReal) (W R : (⟨2, ![1024, 4096]⟩ : Shape).Idx → EReal)
    (b : (⟨1, ![4096]⟩ : Shape).Idx → EReal) (p : Fin M) (q : Fin 1024) : EReal :=
  normNext (pre x h W R b p (colI q)) (pre x h W R b p (colF q)) (n (ix2 p q))

/-- The new hidden state at `(p, q)`. -/
def hidAt (x h c n : (⟨2, ![M, 1024]⟩ : Shape).Idx → EReal) (W R : (⟨2, ![1024, 4096]⟩ : Shape).Idx → EReal)
    (b : (⟨1, ![4096]⟩ : Shape).Idx → EReal) (p : Fin M) (q : Fin 1024) : EReal :=
  hidNext (pre x h W R b p (colZ q)) (pre x h W R b p (colI q)) (pre x h W R b p (colF q)) (pre x h W R b p (colO q))
    (c (ix2 p q)) (n (ix2 p q))

/-- The three results as whole arrays. -/
def cellArr (x h c : (⟨2, ![M, 1024]⟩ : Shape).Idx → EReal) (W R : (⟨2, ![1024, 4096]⟩ : Shape).Idx → EReal)
    (b : (⟨1, ![4096]⟩ : Shape).Idx → EReal) : (⟨2, ![M, 1024]⟩ : Shape).Idx → EReal :=
  fun j => cellAt x h c W R b (j 0) (j 1)
def normArr (x h n : (⟨2, ![M, 1024]⟩ : Shape).Idx → EReal) (W R : (⟨2, ![1024, 4096]⟩ : Shape).Idx → EReal)
    (b : (⟨1, ![4096]⟩ : Shape).Idx → EReal) : (⟨2, ![M, 1024]⟩ : Shape).Idx → EReal :=
  fun j => normAt x h n W R b (j 0) (j 1)
def hidArr (x h c n : (⟨2, ![M, 1024]⟩ : Shape).Idx → EReal) (W R : (⟨2, ![1024, 4096]⟩ : Shape).Idx → EReal)
    (b : (⟨1, ![4096]⟩ : Shape).Idx → EReal) : (⟨2, ![M, 1024]⟩ : Shape).Idx → EReal :=
  fun j => hidAt x h c n W R b (j 0) (j 1)

/-! ## Every result at row `p` reads only row `p` of the four state arrays -/

theorem pre_rows (x h : (⟨2, ![M, 1024]⟩ : Shape).Idx → EReal) (x' h' : (⟨2, ![M', 1024]⟩ : Shape).Idx → EReal)
    (W R : (⟨2, ![1024, 4096]⟩ : Shape).Idx → EReal) (b : (⟨1, ![4096]⟩ : Shape).Idx → EReal) (p : Fin M) (p' : Fin M')
    (hx : ∀ k : Fin 1024, x (ix2 p k) = x' (ix2 p' k)) (hh : ∀ k : Fin 1024, h (ix2 p k) = h' (ix2 p' k)) (q : Fin 4096) :
    pre x h W R b p q = pre x' h' W R b p' q := by
  unfold pre
  exact congrArg₂ (· + ·) (congrArg₂ (· + ·) (Finset.sum_congr rfl fun k _ => by rw [hx k])
    (Finset.sum_congr rfl fun k _ => by rw [hh k])) rfl

theorem cellAt_rows (x h c : (⟨2, ![M, 1024]⟩ : Shape).Idx → EReal) (x' h' c' : (⟨2, ![M', 1024]⟩ : Shape).Idx → EReal)
    (W R : (⟨2, ![1024, 4096]⟩ : Shape).Idx → EReal) (b : (⟨1, ![4096]⟩ : Shape).Idx → EReal) (p : Fin M) (p' : Fin M')
    (hx : ∀ k : Fin 1024, x (ix2 p k) = x' (ix2 p' k)) (hh : ∀ k : Fin 1024, h (ix2 p k) = h' (ix2 p' k))
    (q : Fin 1024) (hc : c (ix2 p q) = c' (ix2 p' q)) :
    cellAt x h c W R b p q = cellAt x' h' c' W R b p' q := by
  unfold cellAt
  rw [pre_rows x h x' h' W R b p p' hx hh, pre_rows x h x' h' W R b p p' hx hh, pre_rows x h x' h' W R b p p' hx hh, hc]

theorem normAt_rows (x h n : (⟨2, ![M, 1024]⟩ : Shape).Idx → EReal) (x' h' n' : (⟨2, ![M', 1024]⟩ : Shape).Idx → EReal)
    (W R : (⟨2, ![1024, 4096]⟩ : Shape).Idx → EReal) (b : (⟨1, ![4096]⟩ : Shape).Idx → EReal) (p : Fin M) (p' : Fin M')
    (hx : ∀ k : Fin 1024, x (ix2 p k) = x' (ix2 p' k)) (hh : ∀ k : Fin 1024, h (ix2 p k) = h' (ix2 p' k))
    (q : Fin 1024) (hn : n (ix2 p q) = n' (ix2 p' q)) :
    normAt x h n W R b p q = normAt x' h' n' W R b p' q := by
  unfold normAt
  rw [pre_rows x h x' h' W R b p p' hx hh, pre_rows x h x' h' W R b p p' hx hh, hn]

theorem hidAt_rows (x h c n : (⟨2, ![M, 1024]⟩ : Shape).Idx → EReal) (x' h' c' n' : (⟨2, ![M', 1024]⟩ : Shape).Idx → EReal)
    (W R : (⟨2, ![1024, 4096]⟩ : Shape).Idx → EReal) (b : (⟨1, ![4096]⟩ : Shape).Idx → EReal) (p : Fin M) (p' : Fin M')
    (hx : ∀ k : Fin 1024, x (ix2 p k) = x' (ix2 p' k)) (hh : ∀ k : Fin 1024, h (ix2 p k) = h' (ix2 p' k))
    (q : Fin 1024) (hc : c (ix2 p q) = c' (ix2 p' q)) (hn : n (ix2 p q) = n' (ix2 p' q)) :
    hidAt x h c n W R b p q = hidAt x' h' c' n' W R b p' q := by
  unfold hidAt
  rw [pre_rows x h x' h' W R b p p' hx hh, pre_rows x h x' h' W R b p p' hx hh, pre_rows x h x' h' W R b p p' hx hh,
    pre_rows x h x' h' W R b p p' hx hh, hc, hn]

/-! ## The two inner products as one of length `2048` -/

/-- A sum over `2048` positions is the sum over the first `1024` plus the sum over the last `1024`. -/
theorem sum_halves (f : Fin 2048 → EReal) :
    ∑ k : Fin 2048, f k = (∑ k : Fin 1024, f (lo k)) + ∑ k : Fin 1024, f (hi k) := by
  have e := Fin.sum_univ_add (M := EReal) (a := 1024) (b := 1024) f
  exact e

/-- The pre-activation from the row `[x[p,·] | h[p,·]]` and the weight `W` stacked on `R`: with `xh` holding `x` in
    its first `1024` columns and `h` in its last, and `wr` holding `W` in its first `1024` rows and `R` in its last,
    one inner product of length `2048` plus the bias is the pre-activation. -/
theorem pre_of_stacked (x h : (⟨2, ![M, 1024]⟩ : Shape).Idx → EReal) (xh : (⟨2, ![M, 2048]⟩ : Shape).Idx → EReal)
    (W R : (⟨2, ![1024, 4096]⟩ : Shape).Idx → EReal) (wr : (⟨2, ![2048, 4096]⟩ : Shape).Idx → EReal)
    (b : (⟨1, ![4096]⟩ : Shape).Idx → EReal) (p : Fin M) (q : Fin 4096)
    (hx : ∀ k : Fin 1024, xh (ix2 p (lo k)) = x (ix2 p k)) (hh : ∀ k : Fin 1024, xh (ix2 p (hi k)) = h (ix2 p k))
    (hW : ∀ k : Fin 1024, wr (ix2 (lo k) q) = W (ix2 k q)) (hR : ∀ k : Fin 1024, wr (ix2 (hi k) q) = R (ix2 k q)) :
    (∑ k : Fin 2048, xh (ix2 p k) * wr (ix2 k q)) + b (ix1 q) = pre x h W R b p q := by
  unfold pre
  rw [sum_halves]
  exact congrArg₂ (· + ·) (congrArg₂ (· + ·) (Finset.sum_congr rfl fun k _ => by rw [hx k, hW k])
    (Finset.sum_congr rfl fun k _ => by rw [hh k, hR k])) rfl

end Cert.Cell

end
-- ==== Proof.Payload.lean ====
/-
  The kernel body's arithmetic, read at an entry of a `256`-row block.

  The body loads the row block `[x | h]` (`256 × 2048`, from its scratch buffer), the stacked weight (`2048 × 4096`)
  and the bias row (`1 × 4096`), forms ONE matrix product into a zero accumulator plus the bias row repeated down
  the rows, cuts the `4096` columns into the four gates' `1024` columns and applies the scalar step. At the ideal
  values a change of float format is the identity, so at row `r`, column `q` of the block the three stored values
  are the scalar step of `Cert.Cell` at the block's pre-activations — and those are the pre-activations of the
  `256`-row arrays `x`, `h` whenever the loaded row block holds `x` in its first `1024` columns and `h` in its last,
  the loaded weight holds `W` in its first `1024` rows and `R` in its last, and the loaded row holds the bias
  (`Cert.Cell.pre_of_stacked`).
-/
import proofs.«122230_j45921790328950_2_alg».proof.Proof.Gen.KernelIdeal.Skeleton
import proofs.«122230_j45921790328950_2_alg».proof.Proof.LibPlainDot
import proofs.«122230_j45921790328950_2_alg».proof.Proof.Cell
import Idealize.ShloMosaic.Lib.Pipeline.Value
import Idealize.ShloMosaic.Lib.ValueIdx

noncomputable section

open scoped BigOperators

namespace Cert.KernelIdeal.Payload

open Cert.KernelIdeal Cert.KernelIdeal.Gen Idealize.ShloMosaic Idealize.ShloMosaic.ValueIdx Cert.Cell

variable (wr : Vec Ideal S2048x4096 .bf16) (xh : Vec Ideal S256x2048 .bf16) (bb : Vec Ideal S1x4096 .f32)

/-- A slice of `1024` columns starting at column `off`, at `(r, q)`, is the operand at `(r, off + q)`. -/
theorem slice_apply (v : S256x4096.Idx → EReal) (off : Nat) (h : S256x4096.Slices ![0, off] S256x1024) (r : Fin 256)
    (q : Fin 1024) (q' : Fin 4096) (hq : q'.val = off + q.val) :
    extractStridedSlice S256x1024 ![0, off] v h (ix2 r q) = v (ix2 r q') :=
  extractStridedSlice_apply ![0, off] v h (ix2 r q) (ix2 r q') (fun a => by
    match a with
    | ⟨0, _⟩ => show r.val = 0 + r.val; omega
    | ⟨1, _⟩ => exact hq)

/-- The product plus the repeated bias row, at `(r, q)`: one inner product of length `2048` plus the bias at `q`. -/
theorem pay4_apply (r : Fin 256) (q : Fin 4096) :
    k0_pay4 (F := Ideal) wr xh bb (ix2 r q)
      = (∑ k : Fin 2048, xh (ix2 r k) * wr (ix2 k q)) + bb (ix2 (0 : Fin 1) q) := by
  unfold k0_pay4
  simp only [shapeCast_self]
  refine (addf_apply _ _ _).trans ?_
  refine congrArg₂ (· + ·) (Cert.Lib.PlainDot.matmul_zero_apply (φ₁ := .bf16) (φ₂ := .bf16) none xh wr r q) ?_
  exact broadcastTo_apply bb broadcasts_S1x4096_S256x4096 (ix2 r q) (ix2 (0 : Fin 1) q) (fun a => by
    match a with
    | ⟨0, _⟩ => exact (if_pos rfl).symm
    | ⟨1, _⟩ => show q.val = if (4096 : Nat) = 1 then 0 else q.val; rw [if_neg (by decide)])

/-- The clamped exponential of the input gate's columns. -/
theorem pay5_apply (r : Fin 256) (q : Fin 1024) :
    k0_pay5 (F := Ideal) wr xh bb (ix2 r q) = inGate (k0_pay4 (F := Ideal) wr xh bb (ix2 r (colI q))) := by
  unfold k0_pay5
  exact congrArg (fun a => min (Ideal.exp a) cap)
    (slice_apply (k0_pay4 (F := Ideal) wr xh bb) 1024 slices_S256x4096_o0_1024_S256x1024 r q (colI q) rfl)

/-- The logistic function of the forget gate's columns. -/
theorem pay6_apply (r : Fin 256) (q : Fin 1024) :
    k0_pay6 (F := Ideal) wr xh bb (ix2 r q) = Ideal.logistic (k0_pay4 (F := Ideal) wr xh bb (ix2 r (colF q))) := by
  unfold k0_pay6
  exact congrArg Ideal.logistic
    (slice_apply (k0_pay4 (F := Ideal) wr xh bb) 2048 slices_S256x4096_o0_2048_S256x1024 r q (colF q) rfl)

/-- The logistic function of the output gate's columns. -/
theorem pay7_apply (r : Fin 256) (q : Fin 1024) :
    k0_pay7 (F := Ideal) wr xh bb (ix2 r q) = Ideal.logistic (k0_pay4 (F := Ideal) wr xh bb (ix2 r (colO q))) := by
  unfold k0_pay7
  exact congrArg Ideal.logistic
    (slice_apply (k0_pay4 (F := Ideal) wr xh bb) 3072 slices_S256x4096_o0_3072_S256x1024 r q (colO q) rfl)

/-- The stored cell state, at `(r, q)`. -/
theorem pay8_apply (cb : Vec Ideal S256x1024 .f32) (r : Fin 256) (q : Fin 1024) :
    k0_pay8 (F := Ideal) wr xh bb cb (ix2 r q)
      = cellNext (k0_pay4 (F := Ideal) wr xh bb (ix2 r (colZ q))) (k0_pay4 (F := Ideal) wr xh bb (ix2 r (colI q)))
          (k0_pay4 (F := Ideal) wr xh bb (ix2 r (colF q))) (cb (ix2 r q)) := by
  unfold k0_pay8
  show k0_pay6 (F := Ideal) wr xh bb (ix2 r q) * cb (ix2 r q)
      + k0_pay5 (F := Ideal) wr xh bb (ix2 r q)
        * Ideal.tanh (extractStridedSlice S256x1024 ![0, 0] (k0_pay4 (F := Ideal) wr xh bb) slices_S256x4096_o0_0_S256x1024 (ix2 r q)) = _
  rw [pay6_apply, pay5_apply,
    slice_apply (k0_pay4 (F := Ideal) wr xh bb) 0 slices_S256x4096_o0_0_S256x1024 r q (colZ q) (Nat.zero_add _).symm]
  rfl

/-- The stored normaliser, at `(r, q)`. -/
theorem pay9_apply (nb : Vec Ideal S256x1024 .f32) (r : Fin 256) (q : Fin 1024) :
    k0_pay9 (F := Ideal) wr xh bb nb (ix2 r q)
      = normNext (k0_pay4 (F := Ideal) wr xh bb (ix2 r (colI q))) (k0_pay4 (F := Ideal) wr xh bb (ix2 r (colF q)))
          (nb (ix2 r q)) := by
  unfold k0_pay9
  show k0_pay6 (F := Ideal) wr xh bb (ix2 r q) * nb (ix2 r q) + k0_pay5 (F := Ideal) wr xh bb (ix2 r q) = _
  rw [pay6_apply, pay5_apply]
  rfl

/-- The stored hidden state, at `(r, q)`. -/
theorem pay1_apply (cb nb : Vec Ideal S256x1024 .f32) (r : Fin 256) (q : Fin 1024) :
    k0_pay1 (F := Ideal) (k0_pay7 (F := Ideal) wr xh bb) (k0_pay8 (F := Ideal) wr xh bb cb)
        (k0_pay9 (F := Ideal) wr xh bb nb) (k0_pay10 (F := Ideal)) (ix2 r q)
      = hidNext (k0_pay4 (F := Ideal) wr xh bb (ix2 r (colZ q))) (k0_pay4 (F := Ideal) wr xh bb (ix2 r (colI q)))
          (k0_pay4 (F := Ideal) wr xh bb (ix2 r (colF q))) (k0_pay4 (F := Ideal) wr xh bb (ix2 r (colO q)))
          (cb (ix2 r q)) (nb (ix2 r q)) := by
  unfold k0_pay1
  show k0_pay7 (F := Ideal) wr xh bb (ix2 r q)
      * Ideal.div (k0_pay8 (F := Ideal) wr xh bb cb (ix2 r q))
          (k0_pay9 (F := Ideal) wr xh bb nb (ix2 r q) + k0_pay10 (F := Ideal) (ix2 r q)) = _
  rw [pay7_apply, pay8_apply, pay9_apply]
  rfl

/-! ## The block's results are the cell step of the block's rows -/

section Block

variable (xb hb cb nb : Vec Ideal S256x1024 .f32)
  (W R : (⟨2, ![1024, 4096]⟩ : Shape).Idx → EReal) (b : (⟨1, ![4096]⟩ : Shape).Idx → EReal)
  (hx : ∀ (r : Fin 256) (k : Fin 1024), xh (ix2 r (lo k)) = xb (ix2 r k))
  (hh : ∀ (r : Fin 256) (k : Fin 1024), xh (ix2 r (hi k)) = hb (ix2 r k))
  (hW : ∀ (k : Fin 1024) (q : Fin 4096), wr (ix2 (lo k) q) = W (ix2 k q))
  (hR : ∀ (k : Fin 1024) (q : Fin 4096), wr (ix2 (hi k) q) = R (ix2 k q))
  (hb' : ∀ q : Fin 4096, bb (ix2 (0 : Fin 1) q) = b (ix1 q))

include hx hh hW hR hb'

theorem pay4_pre (r : Fin 256) (q : Fin 4096) :
    k0_pay4 (F := Ideal) wr xh bb (ix2 r q) = pre xb hb W R b r q := by
  rw [pay4_apply, hb' q]
  exact pre_of_stacked xb hb xh W R wr b r q (hx r) (hh r) (fun k => hW k q) (fun k => hR k q)

theorem cell_block (r : Fin 256) (q : Fin 1024) :
    k0_pay8 (F := Ideal) wr xh bb cb (ix2 r q) = cellAt xb hb cb W R b r q := by
  rw [pay8_apply, pay4_pre wr xh bb xb hb W R b hx hh hW hR hb', pay4_pre wr xh bb xb hb W R b hx hh hW hR hb',
    pay4_pre wr xh bb xb hb W R b hx hh hW hR hb']
  rfl

theorem norm_block (r : Fin 256) (q : Fin 1024) :
    k0_pay9 (F := Ideal) wr xh bb nb (ix2 r q) = normAt xb hb nb W R b r q := by
  rw [pay9_apply, pay4_pre wr xh bb xb hb W R b hx hh hW hR hb', pay4_pre wr xh bb xb hb W R b hx hh hW hR hb']
  rfl

theorem hid_block (r : Fin 256) (q : Fin 1024) :
    k0_pay1 (F := Ideal) (k0_pay7 (F := Ideal) wr xh bb) (k0_pay8 (F := Ideal) wr xh bb cb)
        (k0_pay9 (F := Ideal) wr xh bb nb) (k0_pay10 (F := Ideal)) (ix2 r q)
      = hidAt xb hb cb nb W R b r q := by
  rw [pay1_apply, pay4_pre wr xh bb xb hb W R b hx hh hW hR hb', pay4_pre wr xh bb xb hb W R b hx hh hW hR hb',
    pay4_pre wr xh bb xb hb W R b hx hh hW hR hb', pay4_pre wr xh bb xb hb W R b hx hh hW hR hb']
  rfl

end Block

end Cert.KernelIdeal.Payload

end
-- ==== Proof.LibConcatRead.lean ====
/-
  Two-piece concatenations of small rank read at an entry.

  A concatenation of two arrays along an axis reads, at an index whose coordinate on that axis is below the first
  piece's extent, the first piece at the same coordinates; at or past it, the second piece with that coordinate lowered
  by the first extent. Stated here for the three forms a row- and lane-packing meets: two rank-2 arrays side by side
  (along the columns), two rank-2 arrays stacked (along the rows), and two rank-1 arrays end to end.
-/
import Idealize.ShloMosaic.Lib.ValueIdx
import Idealize.ShloMosaic.Lib.Pipeline.Value

noncomputable section

namespace Cert.Lib.ConcatRead

open Idealize.ShloMosaic Idealize.ShloMosaic.ValueIdx

variable {α : Type}

/-- Side by side, a column of the first piece. -/
theorem cols_left {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₁)
    (hq : q'.val = q.val) :
    concatenate ⟨2, ![a, n]⟩ 1 [⟨⟨2, ![a, b₁]⟩, x₁⟩, ⟨⟨2, ![a, b₂]⟩, x₂⟩] h (ix2 p q) = x₁ (ix2 p q') :=
  concatenate_pair_apply_left 1 x₁ x₂ h (ix2 p q) rfl (ix2 p q') fun b => by
    match b with
    | ⟨0, _⟩ => rfl
    | ⟨1, _⟩ => exact hq

/-- Side by side, a column of the second piece. -/
theorem cols_right {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₂)
    (hq : q'.val + b₁ = q.val) :
    concatenate ⟨2, ![a, n]⟩ 1 [⟨⟨2, ![a, b₁]⟩, x₁⟩, ⟨⟨2, ![a, b₂]⟩, x₂⟩] h (ix2 p q) = x₂ (ix2 p q') :=
  concatenate_pair_apply_right 1 x₁ x₂ h (ix2 p q) rfl rfl (ix2 p q') (fun b hb => by
    match b with
    | ⟨0, _⟩ => rfl
    | ⟨1, _⟩ => exact absurd rfl hb) hq

/-- Stacked, a row of the first piece. -/
theorem rows_left {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₁)
    (hp : p'.val = p.val) :
    concatenate ⟨2, ![n, b]⟩ 0 [⟨⟨2, ![a₁, b]⟩, x₁⟩, ⟨⟨2, ![a₂, b]⟩, x₂⟩] h (ix2 p q) = x₁ (ix2 p' q) :=
  concatenate_pair_apply_left 0 x₁ x₂ h (ix2 p q) rfl (ix2 p' q) fun b => by
    match b with
    | ⟨0, _⟩ => exact hp
    | ⟨1, _⟩ => rfl

/-- Stacked, a row of the second piece. -/
theorem rows_right {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₂)
    (hp : p'.val + a₁ = p.val) :
    concatenate ⟨2, ![n, b]⟩ 0 [⟨⟨2, ![a₁, b]⟩, x₁⟩, ⟨⟨2, ![a₂, b]⟩, x₂⟩] h (ix2 p q) = x₂ (ix2 p' q) :=
  concatenate_pair_apply_right 0 x₁ x₂ h (ix2 p q) rfl rfl (ix2 p' q) (fun b hb => by
    match b with
    | ⟨0, _⟩ => exact absurd rfl hb
    | ⟨1, _⟩ => rfl) hp

/-- End to end, an entry of the first piece. -/
theorem vec_left {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₁) (hp : p'.val = p.val) :
    concatenate ⟨1, ![n]⟩ 0 [⟨⟨1, ![a₁]⟩, x₁⟩, ⟨⟨1, ![a₂]⟩, x₂⟩] h (ix1 p) = x₁ (ix1 p') :=
  concatenate_pair_apply_left 0 x₁ x₂ h (ix1 p) rfl (ix1 p') fun b => by
    match b with
    | ⟨0, _⟩ => exact hp

/-- End to end, an entry of the second piece. -/
theorem vec_right {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₂) (hp : p'.val + a₁ = p.val) :
    concatenate ⟨1, ![n]⟩ 0 [⟨⟨1, ![a₁]⟩, x₁⟩, ⟨⟨1, ![a₂]⟩, x₂⟩] h (ix1 p) = x₂ (ix1 p') :=
  concatenate_pair_apply_right 0 x₁ x₂ h (ix1 p) rfl rfl (ix1 p') (fun b hb => by
    match b with
    | ⟨0, _⟩ => exact absurd rfl hb) hp

end Cert.Lib.ConcatRead

end
-- ==== Proof.Blocks.lean ====
/-
  The kernel's three result arrays are the cell step of the whole argument arrays.

  The grid has `32` points; at point `t` every input and output window of `256 × 1024` entries is rows
  `256·t … 256·t + 255` of its array, the stacked weight and the bias row are whole. The stacked weight the region
  finds is `W` on top of `R` (a host concatenation, then a change of float format that is the identity at the ideal
  values) and the bias row is the bias vector viewed as one row. So by the block lemmas of `Payload` and the row
  locality of the cell step (`Cert.Cell.cellAt_rows` …), what point `t` writes back to each output is block `t` of
  ONE function of the argument arrays — `hidArr`, `cellArr`, `normArr` —, and since row `p` of an output lies in
  the block of point `p / 256`, the blocks cover each output array and it ends holding that function.
-/
import proofs.«122230_j45921790328950_2_alg».proof.Proof.Gen.KernelIdeal.Value
import proofs.«122230_j45921790328950_2_alg».proof.Proof.Pieces
import proofs.«122230_j45921790328950_2_alg».proof.Proof.Payload
import proofs.«122230_j45921790328950_2_alg».proof.Proof.LibConcatRead
import proofs.«122230_j45921790328950_2_alg».proof.Proof.Cell
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.CellValue

open Cert.KernelIdeal Cert.KernelIdeal.Gen Cert.KernelIdeal.Value Cert.KernelIdeal.Pieces Cert.Cell

variable (m : (ℓ : Loc nD τ sig) → Buf (Elt Ideal) ℓ) (ρ : Dev nD → PrngReg)

/-! ## The windows' block indices, decided over the grid -/

/-- At point `t` the four input blocks and the three output blocks are block `(t, 0)` of their arrays; the stacked
    weight and the bias row are block `(0, 0)`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The array row under row `r` of point `t`'s block. -/
def rowOf (t : Fin cfg0.N) (r : Fin 256) : Fin 8192 :=
  ⟨256 * t.val + r.val, by have := t.isLt; have hN : cfg0.N = 32 := N_0; have := r.isLt; omega⟩

/-! ## The input blocks, read at an entry -/

theorem iblk0_apply (c : Dev nD) (t : Fin cfg0.N) (r : Fin 256) (k : Fin 1024) :
    (iblk m c 0 t : Vec Ideal S256x1024 .f32) (ix2 r k) = m ((c : Thread nD τ).loc main_arg0) (ix2 (rowOf t r) k) := by
  refine Eq.trans ?_ (congrFun (V_main_arg0 m c) (ix2 (rowOf t r) k))
  show V m c main_arg0 (((cfg0.win 0).blk t).view.emb (ix2 r k)) = V m c main_arg0 (ix2 (rowOf t r) k)
  refine congrArg (V m c main_arg0) ?_
  funext a
  apply Fin.ext
  have e := idx_rows t
  match a with
  | ⟨0, _⟩ => show win0_0.index t (0 : Fin 2) * 256 + 1 * r.val = 256 * t.val + r.val; omega
  | ⟨1, _⟩ => show win0_0.index t (1 : Fin 2) * 1024 + 1 * k.val = k.val; omega

theorem iblk1_apply (c : Dev nD) (t : Fin cfg0.N) (r : Fin 256) (k : Fin 1024) :
    (iblk m c 1 t : Vec Ideal S256x1024 .f32) (ix2 r k) = m ((c : Thread nD τ).loc main_arg1) (ix2 (rowOf t r) k) := by
  refine Eq.trans ?_ (congrFun (V_main_arg1 m c) (ix2 (rowOf t r) k))
  show V m c main_arg1 (((cfg0.win 1).blk t).view.emb (ix2 r k)) = V m c main_arg1 (ix2 (rowOf t r) k)
  refine congrArg (V m c main_arg1) ?_
  funext a
  apply Fin.ext
  have e := idx_rows t
  match a with
  | ⟨0, _⟩ => show win0_1.index t (0 : Fin 2) * 256 + 1 * r.val = 256 * t.val + r.val; omega
  | ⟨1, _⟩ => show win0_1.index t (1 : Fin 2) * 1024 + 1 * k.val = k.val; omega

theorem iblk2_apply (c : Dev nD) (t : Fin cfg0.N) (r : Fin 256) (k : Fin 1024) :
    (iblk m c 2 t : Vec Ideal S256x1024 .f32) (ix2 r k) = m ((c : Thread nD τ).loc main_arg2) (ix2 (rowOf t r) k) := by
  refine Eq.trans ?_ (congrFun (V_main_arg2 m c) (ix2 (rowOf t r) k))
  show V m c main_arg2 (((cfg0.win 2).blk t).view.emb (ix2 r k)) = V m c main_arg2 (ix2 (rowOf t r) k)
  refine congrArg (V m c main_arg2) ?_
  funext a
  apply Fin.ext
  have e := idx_rows t
  match a with
  | ⟨0, _⟩ => show win0_2.index t (0 : Fin 2) * 256 + 1 * r.val = 256 * t.val + r.val; omega
  | ⟨1, _⟩ => show win0_2.index t (1 : Fin 2) * 1024 + 1 * k.val = k.val; omega

theorem iblk3_apply (c : Dev nD) (t : Fin cfg0.N) (r : Fin 256) (k : Fin 1024) :
    (iblk m c 3 t : Vec Ideal S256x1024 .f32) (ix2 r k) = m ((c : Thread nD τ).loc main_arg3) (ix2 (rowOf t r) k) := by
  refine Eq.trans ?_ (congrFun (V_main_arg3 m c) (ix2 (rowOf t r) k))
  show V m c main_arg3 (((cfg0.win 3).blk t).view.emb (ix2 r k)) = V m c main_arg3 (ix2 (rowOf t r) k)
  refine congrArg (V m c main_arg3) ?_
  funext a
  apply Fin.ext
  have e := idx_rows t
  match a with
  | ⟨0, _⟩ => show win0_3.index t (0 : Fin 2) * 256 + 1 * r.val = 256 * t.val + r.val; omega
  | ⟨1, _⟩ => show win0_3.index t (1 : Fin 2) * 1024 + 1 * k.val = k.val; omega

/-- The stacked weight as the region finds it: `W` on top of `R`. -/
theorem V_wr (c : Dev nD) : (V m c main_v1 : S2048x4096.Idx → EReal)
    = truncf (F := Ideal) .bf16 (concatenate S2048x4096 0 [⟨S1024x4096, (m ((c : Thread nD τ).loc main_arg4) : S1024x4096.Idx → EReal)⟩,
        ⟨S1024x4096, (m ((c : Thread nD τ).loc main_arg5) : S1024x4096.Idx → EReal)⟩] concatenates_S1024x4096_S1024x4096_S2048x4096_d0)
      bitsLt_bf16_f32 := by
  dsimp only [Gen.V, Gen.hostOps0]
  after_results

/-- The bias row as the region finds it: the bias vector viewed as one row. -/
theorem V_b (c : Dev nD) : (V m c main_v2 : S1x4096.Idx → EReal)
    = shapeCast S1x4096 (m ((c : Thread nD τ).loc main_arg6) : S4096.Idx → EReal) shapeCasts_S4096_S1x4096 := by
  dsimp only [Gen.V, Gen.hostOps0]
  after_results
  rfl

/-- The weight block is the whole stacked weight. -/
theorem wr_apply (c : Dev nD) (t : Fin cfg0.N) (k : Fin 2048) (q : Fin 4096) :
    (iblk m c 4 t : Vec Ideal S2048x4096 .bf16) (ix2 k q) = V m c main_v1 (ix2 k q) := by
  show V m c main_v1 (((cfg0.win 4).blk t).view.emb (ix2 k q)) = V m c main_v1 (ix2 k q)
  refine congrArg (V m c main_v1) ?_
  funext a
  apply Fin.ext
  have e := idx_rows t
  match a with
  | ⟨0, _⟩ => show win0_4.index t (0 : Fin 2) * 2048 + 1 * k.val = k.val; omega
  | ⟨1, _⟩ => show win0_4.index t (1 : Fin 2) * 4096 + 1 * q.val = q.val; omega

/-- Its first `1024` rows are `W`, -/
theorem wr_lo (c : Dev nD) (t : Fin cfg0.N) (k : Fin 1024) (q : Fin 4096) :
    (iblk m c 4 t : Vec Ideal S2048x4096 .bf16) (ix2 (lo k) q) = m ((c : Thread nD τ).loc main_arg4) (ix2 k q) := by
  rw [wr_apply m c t (lo k) q, V_wr m c]
  exact Cert.Lib.ConcatRead.rows_left _ _ concatenates_S1024x4096_S1024x4096_S2048x4096_d0 (lo k) q k rfl

/-- and its last `1024` rows are `R`. -/
theorem wr_hi (c : Dev nD) (t : Fin cfg0.N) (k : Fin 1024) (q : Fin 4096) :
    (iblk m c 4 t : Vec Ideal S2048x4096 .bf16) (ix2 (hi k) q) = m ((c : Thread nD τ).loc main_arg5) (ix2 k q) := by
  rw [wr_apply m c t (hi k) q, V_wr m c]
  exact Cert.Lib.ConcatRead.rows_right _ _ concatenates_S1024x4096_S1024x4096_S2048x4096_d0 (hi k) q k (Nat.add_comm _ _)

/-- The bias block is the bias vector as a row. -/
theorem b_apply (c : Dev nD) (t : Fin cfg0.N) (q : Fin 4096) :
    (iblk m c 5 t : Vec Ideal S1x4096 .f32) (ix2 (0 : Fin 1) q) = m ((c : Thread nD τ).loc main_arg6) (ix1 q) := by
  have h1 : (iblk m c 5 t : Vec Ideal S1x4096 .f32) (ix2 (0 : Fin 1) q) = V m c main_v2 (ix2 (0 : Fin 1) q) := by
    show V m c main_v2 (((cfg0.win 5).blk t).view.emb (ix2 (0 : Fin 1) q)) = V m c main_v2 (ix2 (0 : Fin 1) q)
    refine congrArg (V m c main_v2) ?_
    funext a
    apply Fin.ext
    have e := idx_rows t
    match a with
    | ⟨0, _⟩ => show win0_5.index t (0 : Fin 2) * 1 + 1 * 0 = 0; omega
    | ⟨1, _⟩ => show win0_5.index t (1 : Fin 2) * 4096 + 1 * q.val = q.val; omega
  rw [h1, V_b m c]
  refine (shapeCast_addUnit_apply ![4096] (m ((c : Thread nD τ).loc main_arg6) : S4096.Idx → EReal) shapeCasts_S4096_S1x4096
    (ix2 (0 : Fin 1) q)).trans (congrArg (m ((c : Thread nD τ).loc main_arg6) : S4096.Idx → EReal) ?_)
  funext a
  match a with
  | ⟨0, _⟩ => rfl

/-! ## The loaded row block `[x | h]` at the ideal values -/

theorem rowBlock_lo (x0 x1 : Vec Ideal S256x1024 .f32) (r : Fin 256) (k : Fin 1024) :
    rowBlock x0 x1 (ix2 r (lo k)) = x0 (ix2 r k) := by
  unfold rowBlock
  refine (Cert.Lib.TwoCols.canon_left (Val := Elt Ideal) (e := .bf16) (M := 256) (N₁ := 1024) (N₂ := 1024) (N := 2048)
    (k0_pay2 (F := Ideal) x0) (k0_pay3 (F := Ideal) x1) inb_S256x2048_S256x1024_0_0
    inb_S256x2048_S256x1024_0_1024 r k (lo k) rfl).trans ?_
  unfold k0_pay2
  simp only [shapeCast_self]
  rfl

theorem rowBlock_hi (x0 x1 : Vec Ideal S256x1024 .f32) (r : Fin 256) (k : Fin 1024) :
    rowBlock x0 x1 (ix2 r (hi k)) = x1 (ix2 r k) := by
  unfold rowBlock
  refine (Cert.Lib.TwoCols.canon_right (Val := Elt Ideal) (e := .bf16) (M := 256) (N₁ := 1024) (N₂ := 1024) (N := 2048)
    (k0_pay2 (F := Ideal) x0) (k0_pay3 (F := Ideal) x1) inb_S256x2048_S256x1024_0_0
    inb_S256x2048_S256x1024_0_1024 r k (hi k) rfl).trans ?_
  unfold k0_pay3
  simp only [shapeCast_self]
  rfl

/-! ## One point's stored values are the cell step at the array's rows -/

section Point

variable (x0 x1 x2 x3 : Vec Ideal S256x1024 .f32) (x4 : Vec Ideal S2048x4096 .bf16) (x5 : Vec Ideal S1x4096 .f32)
  (X H C N : S8192x1024.Idx → EReal) (W R : S1024x4096.Idx → EReal) (b : S4096.Idx → EReal) (p : Fin 8192) (r : Fin 256)
  (e0 : ∀ k : Fin 1024, x0 (ix2 r k) = X (ix2 p k)) (e1 : ∀ k : Fin 1024, x1 (ix2 r k) = H (ix2 p k))
  (e2 : ∀ q : Fin 1024, x2 (ix2 r q) = C (ix2 p q)) (e3 : ∀ q : Fin 1024, x3 (ix2 r q) = N (ix2 p q))
  (hW : ∀ (k : Fin 1024) (q : Fin 4096), x4 (ix2 (lo k) q) = W (ix2 k q))
  (hR : ∀ (k : Fin 1024) (q : Fin 4096), x4 (ix2 (hi k) q) = R (ix2 k q))
  (hb : ∀ q : Fin 4096, x5 (ix2 (0 : Fin 1) q) = b (ix1 q))

include e0 e1 e2 hW hR hb in
theorem cell_point (q : Fin 1024) :
    k0_pay8 (F := Ideal) x4 (rowBlock x0 x1) x5 x2 (ix2 r q) = cellArr X H C W R b (ix2 p q) := by
  rw [Payload.cell_block x4 (rowBlock x0 x1) x5 x0 x1 x2 W R b (rowBlock_lo x0 x1) (rowBlock_hi x0 x1) hW hR hb r q]
  exact cellAt_rows x0 x1 x2 X H C W R b r p e0 e1 q (e2 q)

include e0 e1 e3 hW hR hb in
theorem norm_point (q : Fin 1024) :
    k0_pay9 (F := Ideal) x4 (rowBlock x0 x1) x5 x3 (ix2 r q) = normArr X H N W R b (ix2 p q) := by
  rw [Payload.norm_block x4 (rowBlock x0 x1) x5 x0 x1 x3 W R b (rowBlock_lo x0 x1) (rowBlock_hi x0 x1) hW hR hb r q]
  exact normAt_rows x0 x1 x3 X H N W R b r p e0 e1 q (e3 q)

include e0 e1 e2 e3 hW hR hb in
theorem hid_point (q : Fin 1024) :
    k0_pay1 (F := Ideal) (k0_pay7 (F := Ideal) x4 (rowBlock x0 x1) x5) (k0_pay8 (F := Ideal) x4 (rowBlock x0 x1) x5 x2)
        (k0_pay9 (F := Ideal) x4 (rowBlock x0 x1) x5 x3) (k0_pay10 (F := Ideal)) (ix2 r q)
      = hidArr X H C N W R b (ix2 p q) := by
  rw [Payload.hid_block x4 (rowBlock x0 x1) x5 x0 x1 x2 x3 W R b (rowBlock_lo x0 x1) (rowBlock_hi x0 x1) hW hR hb r q]
  exact hidAt_rows x0 x1 x2 x3 X H C N W R b r p e0 e1 q (e2 q) (e3 q)

end Point

/-! ## The output blocks, and the cover -/

theorem emb6 (t : Fin cfg0.N) (r : Fin 256) (q : Fin 1024) :
    ((cfg0.win 6).blk t).view.emb (ix2 r q) = (ix2 (rowOf t r) q : S8192x1024.Idx) := by
  funext a
  apply Fin.ext
  have e := idx_rows t
  match a with
  | ⟨0, _⟩ => show win0_6.index t (0 : Fin 2) * 256 + 1 * r.val = 256 * t.val + r.val; omega
  | ⟨1, _⟩ => show win0_6.index t (1 : Fin 2) * 1024 + 1 * q.val = q.val; omega

/-- An index of the array is in point `t`'s block of output 0 iff each coordinate is in the block's range. -/
theorem mem_blk6 (t : Fin cfg0.N) (i : S8192x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v3_0).slice (win0_6.rect t)).set ↔ _
  rw [View.set_slice_whole, Rect.mem_set_unit]
  exact Iff.rfl

/-- Row `p` of the array lies in the block of point `p / 256`. -/
theorem cover6 (i : S8192x1024.Idx) :
    ∃ t : Fin cfg0.N, (cfg0.win 6).flush t = true ∧ i ∈ ((cfg0.win 6).blk t).view.set := by
  have hN : cfg0.N = 32 := N_0
  have hi0 : (i 0).val < 8192 := (i 0).isLt
  have hi1 : (i 1).val < 1024 := (i 1).isLt
  obtain ⟨t, ht⟩ : ∃ t : Fin cfg0.N, t.val = (i 0).val / 256 := ⟨⟨(i 0).val / 256, by omega⟩, rfl⟩
  refine ⟨t, flush0_6 t, ?_⟩
  rw [mem_blk6]
  have e := idx_rows t
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 1024 ≤ (i 1).val ∧ (i 1).val < win0_6.index t (1 : Fin 2) * 1024 + 1024
    omega

theorem emb7 (t : Fin cfg0.N) (r : Fin 256) (q : Fin 1024) :
    ((cfg0.win 7).blk t).view.emb (ix2 r q) = (ix2 (rowOf t r) q : S8192x1024.Idx) := by
  funext a
  apply Fin.ext
  have e := idx_rows t
  match a with
  | ⟨0, _⟩ => show win0_7.index t (0 : Fin 2) * 256 + 1 * r.val = 256 * t.val + r.val; omega
  | ⟨1, _⟩ => show win0_7.index t (1 : Fin 2) * 1024 + 1 * q.val = q.val; omega

/-- An index of the array is in point `t`'s block of output 1 iff each coordinate is in the block's range. -/
theorem mem_blk7 (t : Fin cfg0.N) (i : S8192x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v3_1).slice (win0_7.rect t)).set ↔ _
  rw [View.set_slice_whole, Rect.mem_set_unit]
  exact Iff.rfl

/-- Row `p` of the array lies in the block of point `p / 256`. -/
theorem cover7 (i : S8192x1024.Idx) :
    ∃ t : Fin cfg0.N, (cfg0.win 7).flush t = true ∧ i ∈ ((cfg0.win 7).blk t).view.set := by
  have hN : cfg0.N = 32 := N_0
  have hi0 : (i 0).val < 8192 := (i 0).isLt
  have hi1 : (i 1).val < 1024 := (i 1).isLt
  obtain ⟨t, ht⟩ : ∃ t : Fin cfg0.N, t.val = (i 0).val / 256 := ⟨⟨(i 0).val / 256, by omega⟩, rfl⟩
  refine ⟨t, flush0_7 t, ?_⟩
  rw [mem_blk7]
  have e := idx_rows t
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 1024 ≤ (i 1).val ∧ (i 1).val < win0_7.index t (1 : Fin 2) * 1024 + 1024
    omega

theorem emb8 (t : Fin cfg0.N) (r : Fin 256) (q : Fin 1024) :
    ((cfg0.win 8).blk t).view.emb (ix2 r q) = (ix2 (rowOf t r) q : S8192x1024.Idx) := by
  funext a
  apply Fin.ext
  have e := idx_rows t
  match a with
  | ⟨0, _⟩ => show win0_8.index t (0 : Fin 2) * 256 + 1 * r.val = 256 * t.val + r.val; omega
  | ⟨1, _⟩ => show win0_8.index t (1 : Fin 2) * 1024 + 1 * q.val = q.val; omega

/-- An index of the array is in point `t`'s block of output 2 iff each coordinate is in the block's range. -/
theorem mem_blk8 (t : Fin cfg0.N) (i : S8192x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v3_2).slice (win0_8.rect t)).set ↔ _
  rw [View.set_slice_whole, Rect.mem_set_unit]
  exact Iff.rfl

/-- Row `p` of the array lies in the block of point `p / 256`. -/
theorem cover8 (i : S8192x1024.Idx) :
    ∃ t : Fin cfg0.N, (cfg0.win 8).flush t = true ∧ i ∈ ((cfg0.win 8).blk t).view.set := by
  have hN : cfg0.N = 32 := N_0
  have hi0 : (i 0).val < 8192 := (i 0).isLt
  have hi1 : (i 1).val < 1024 := (i 1).isLt
  obtain ⟨t, ht⟩ : ∃ t : Fin cfg0.N, t.val = (i 0).val / 256 := ⟨⟨(i 0).val / 256, by omega⟩, rfl⟩
  refine ⟨t, flush0_8 t, ?_⟩
  rw [mem_blk8]
  have e := idx_rows t
  intro a
  match a with
  | ⟨0, _⟩ =>
    show win0_8.index t (0 : Fin 2) * 256 ≤ (i 0).val ∧ (i 0).val < win0_8.index t (0 : Fin 2) * 256 + 256
    omega
  | ⟨1, _⟩ =>
    show win0_8.index t (1 : Fin 2) * 1024 ≤ (i 1).val ∧ (i 1).val < win0_8.index t (1 : Fin 2) * 1024 + 1024
    omega

/-! ## What each point writes back is its block of one whole-array function -/

theorem flushed7_eq (c : Dev nD) (t : Fin cfg0.N) :
    (dats m 0 c).flushed 7 t = ((cfg0.win 7).blk t).view.read (Elt Ideal) (cellArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) := by
  rw [flushed7_A m c t, out7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)]
  funext j
  obtain ⟨r, q, rfl⟩ : ∃ (r : Fin 256) (q : Fin 1024), j = (ix2 r q : S256x1024.Idx) := ⟨j 0, j 1, eq_ix2 j⟩
  show k0_pay8 (F := Ideal) (iblk m c 4 t) (rowBlock (iblk m c 0 t) (iblk m c 1 t)) (iblk m c 5 t) (iblk m c 2 t) (ix2 r q)
    = cellArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (((cfg0.win 7).blk t).view.emb (ix2 r q))
  rw [emb7 t r q]
  exact cell_point (iblk m c 0 t) (iblk m c 1 t) (iblk m c 2 t) (iblk m c 4 t) (iblk m c 5 t) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (rowOf t r) r
    (iblk0_apply m c t r) (iblk1_apply m c t r) (iblk2_apply m c t r) (wr_lo m c t) (wr_hi m c t) (b_apply m c t) q

theorem flushed8_eq (c : Dev nD) (t : Fin cfg0.N) :
    (dats m 0 c).flushed 8 t = ((cfg0.win 8).blk t).view.read (Elt Ideal) (normArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  rw [flushed8_A m c t, out8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)]
  funext j
  obtain ⟨r, q, rfl⟩ : ∃ (r : Fin 256) (q : Fin 1024), j = (ix2 r q : S256x1024.Idx) := ⟨j 0, j 1, eq_ix2 j⟩
  show k0_pay9 (F := Ideal) (iblk m c 4 t) (rowBlock (iblk m c 0 t) (iblk m c 1 t)) (iblk m c 5 t) (iblk m c 3 t) (ix2 r q)
    = normArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (((cfg0.win 8).blk t).view.emb (ix2 r q))
  rw [emb8 t r q]
  exact norm_point (iblk m c 0 t) (iblk m c 1 t) (iblk m c 3 t) (iblk m c 4 t) (iblk m c 5 t) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (rowOf t r) r
    (iblk0_apply m c t r) (iblk1_apply m c t r) (iblk3_apply m c t r) (wr_lo m c t) (wr_hi m c t) (b_apply m c t) q

theorem flushed6_eq (c : Dev nD) (t : Fin cfg0.N) :
    (dats m 0 c).flushed 6 t = ((cfg0.win 6).blk t).view.read (Elt Ideal) (hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [flushed6_A m c t, out6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)]
  funext j
  obtain ⟨r, q, rfl⟩ : ∃ (r : Fin 256) (q : Fin 1024), j = (ix2 r q : S256x1024.Idx) := ⟨j 0, j 1, eq_ix2 j⟩
  show k0_pay1 (F := Ideal) (k0_pay7 (F := Ideal) (iblk m c 4 t) (rowBlock (iblk m c 0 t) (iblk m c 1 t)) (iblk m c 5 t))
      (k0_pay8 (F := Ideal) (iblk m c 4 t) (rowBlock (iblk m c 0 t) (iblk m c 1 t)) (iblk m c 5 t) (iblk m c 2 t))
      (k0_pay9 (F := Ideal) (iblk m c 4 t) (rowBlock (iblk m c 0 t) (iblk m c 1 t)) (iblk m c 5 t) (iblk m c 3 t))
      (k0_pay10 (F := Ideal)) (ix2 r q)
    = hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 6).blk t).view.emb (ix2 r q))
  rw [emb6 t r q]
  exact hid_point (iblk m c 0 t) (iblk m c 1 t) (iblk m c 2 t) (iblk m c 3 t) (iblk m c 4 t) (iblk m c 5 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (rowOf t r) r (iblk0_apply m c t r) (iblk1_apply m c t r) (iblk2_apply m c t r) (iblk3_apply m c t r) (wr_lo m c t)
    (wr_hi m c t) (b_apply m c t) q

/-! ## The arrays after the run -/

theorem final6 (c : Dev nD) : (dats m 0 c).arrAt 6 cfg0.N = hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 6 (hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed6_eq m c t) cover6

theorem final7 (c : Dev nD) : (dats m 0 c).arrAt 7 cfg0.N = cellArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (dats m 0 c).arrAt_eq_of_cover 7 (cellArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (fun t _ => flushed7_eq m c t) cover7

theorem final8 (c : Dev nD) : (dats m 0 c).arrAt 8 cfg0.N = normArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (dats m 0 c).arrAt_eq_of_cover 8 (normArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (fun t _ => flushed8_eq m c t) cover8

/-- The kernel's run, read: each result array at its function of the argument arrays, the arguments unchanged. -/
theorem run : θ_run defs (onTc (τ := τ) (main (F := Ideal))) ⟨m, fun _ => 0, ρ⟩ fun r => ∀ c : Dev nD,
      r.2.mem ((c : Thread nD τ).loc main_v3_0) = hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v3_1) = cellArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
      ∧ r.2.mem ((c : Thread nD τ).loc main_v3_2) = normArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c),
      (h c).2.2.1.trans (final8 m c), (h c).2.2.2⟩)
    (run_blocks m ρ)

end Cert.KernelIdeal.CellValue

end
-- ==== Proof.RefCell.lean ====
/-
  The reference computes the cell step entry by entry.

  The reference forms the pre-activation as two matrix products added, plus the bias row repeated down the batch,
  cuts its `4096` columns into the four gates' `1024` columns, and applies the scalar step with the logistic
  function spelt out as `1 / (1 + e^(-a))`. Read at row `p`, column `q` each of its three results is the scalar
  step of `Cert.Cell` at the pre-activations of row `p`: the spelt-out quotient is the logistic function by
  definition, and the float word of `1.0` is `1`.
-/
import proofs.«122230_j45921790328950_2_alg».proof.Proof.Gen.ReferenceIdeal.Read
import proofs.«122230_j45921790328950_2_alg».proof.Proof.Cell

noncomputable section

open scoped BigOperators

namespace Cert.ReferenceIdeal.RefCell

open Cert.ReferenceIdeal Cert.ReferenceIdeal.Read Idealize.ShloMosaic Idealize.ShloMosaic.ValueIdx Cert.Cell

variable (x0 x1 x2 x3 : (⟨S8192x1024, .f32⟩ : BufTy).Contents (Elt Ideal))
  (x4 x5 : (⟨S1024x4096, .f32⟩ : BufTy).Contents (Elt Ideal)) (x6 : (⟨S4096, .f32⟩ : BufTy).Contents (Elt Ideal))

/-- The sum of the two products plus the repeated bias, at `(p, q)`, is the pre-activation. -/
theorem pre_eq (p : Fin 8192) (q : Fin 4096) :
    val_main_v5 (F := Ideal) x0 x1 x4 x5 x6 (ix2 p q) = pre x0 x1 x4 x5 x6 p q := by
  have el0 : ∀ k : Fin 1024, lidx_main_v0 (ix2 p q) k = ix2 p k := fun k => funext fun a => Fin.ext (by
    match a with
    | ⟨0, _⟩ => rfl
    | ⟨1, _⟩ => rfl)
  have er0 : ∀ k : Fin 1024, ridx_main_v0 (ix2 p q) k = ix2 k q := fun k => funext fun a => Fin.ext (by
    match a with
    | ⟨0, _⟩ => rfl
    | ⟨1, _⟩ => rfl)
  have el1 : ∀ k : Fin 1024, lidx_main_v1 (ix2 p q) k = ix2 p k := fun k => funext fun a => Fin.ext (by
    match a with
    | ⟨0, _⟩ => rfl
    | ⟨1, _⟩ => rfl)
  have er1 : ∀ k : Fin 1024, ridx_main_v1 (ix2 p q) k = ix2 k q := fun k => funext fun a => Fin.ext (by
    match a with
    | ⟨0, _⟩ => rfl
    | ⟨1, _⟩ => rfl)
  have eb : idx_main_v3 (idx_main_v4 (ix2 p q)) = ix1 q := funext fun a => Fin.ext (by
    match a with
    | ⟨0, _⟩ => rfl)
  rw [val_main_v5_apply, val_main_v2_apply, val_main_v0_apply, val_main_v1_apply, val_main_v4_apply, val_main_v3_apply]
  simp only [el0, er0, el1, er1, eb, Ideal.addf_def]
  rfl

/-- The four column slices of the pre-activation. -/
theorem preZ_eq (p : Fin 8192) (q : Fin 1024) :
    val_main_v6 (F := Ideal) x0 x1 x4 x5 x6 (ix2 p q) = pre x0 x1 x4 x5 x6 p (colZ q) := by
  have e : idx_main_v6 (ix2 p q) = ix2 p (colZ q) := funext fun a => Fin.ext (by
    match a with
    | ⟨0, _⟩ => rfl
    | ⟨1, _⟩ => rfl)
  rw [val_main_v6_apply, e, pre_eq]

theorem preI_eq (p : Fin 8192) (q : Fin 1024) :
    val_main_v7 (F := Ideal) x0 x1 x4 x5 x6 (ix2 p q) = pre x0 x1 x4 x5 x6 p (colI q) := by
  have e : idx_main_v7 (ix2 p q) = ix2 p (colI q) := funext fun a => Fin.ext (by
    match a with
    | ⟨0, _⟩ => rfl
    | ⟨1, _⟩ => rfl)
  rw [val_main_v7_apply, e, pre_eq]

theorem preF_eq (p : Fin 8192) (q : Fin 1024) :
    val_main_v8 (F := Ideal) x0 x1 x4 x5 x6 (ix2 p q) = pre x0 x1 x4 x5 x6 p (colF q) := by
  have e : idx_main_v8 (ix2 p q) = ix2 p (colF q) := funext fun a => Fin.ext (by
    match a with
    | ⟨0, _⟩ => rfl
    | ⟨1, _⟩ => rfl)
  rw [val_main_v8_apply, e, pre_eq]

theorem preO_eq (p : Fin 8192) (q : Fin 1024) :
    val_main_v9 (F := Ideal) x0 x1 x4 x5 x6 (ix2 p q) = pre x0 x1 x4 x5 x6 p (colO q) := by
  have e : idx_main_v9 (ix2 p q) = ix2 p (colO q) := funext fun a => Fin.ext (by
    match a with
    | ⟨0, _⟩ => rfl
    | ⟨1, _⟩ => rfl)
  rw [val_main_v9_apply, e, pre_eq]

/-- The clamped exponential of the input gate's pre-activation. -/
theorem inGate_eq (p : Fin 8192) (q : Fin 1024) :
    val_main_v13 (F := Ideal) x0 x1 x4 x5 x6 (ix2 p q) = inGate (pre x0 x1 x4 x5 x6 p (colI q)) := by
  rw [val_main_v13_apply, val_main_v11_apply, val_main_v12_apply, val_main_cst_apply, preI_eq]
  rfl

/-- The forget gate: `1 / (1 + e^(-a))` is the logistic function. -/
theorem forget_eq (p : Fin 8192) (q : Fin 1024) :
    val_main_v19 (F := Ideal) x0 x1 x4 x5 x6 (ix2 p q) = Ideal.logistic (pre x0 x1 x4 x5 x6 p (colF q)) := by
  rw [val_main_v19_apply, val_main_v18_apply, val_main_cst_1_apply, val_main_v17_apply, val_main_v16_apply,
    val_main_cst_0_apply, val_main_v15_apply, val_main_v14_apply, preF_eq]
  simp only [Ideal.hostDivf_def, Ideal.addf_def, Ideal.hostUnary_exp_def, Ideal.hostNegf_def, Ideal.negf_def,
    Ideal.ofBits_def, one_f32]
  rfl

/-- The output gate, likewise. -/
theorem output_eq (p : Fin 8192) (q : Fin 1024) :
    val_main_v25 (F := Ideal) x0 x1 x4 x5 x6 (ix2 p q) = Ideal.logistic (pre x0 x1 x4 x5 x6 p (colO q)) := by
  rw [val_main_v25_apply, val_main_v24_apply, val_main_cst_3_apply, val_main_v23_apply, val_main_v22_apply,
    val_main_cst_2_apply, val_main_v21_apply, val_main_v20_apply, preO_eq]
  simp only [Ideal.hostDivf_def, Ideal.addf_def, Ideal.hostUnary_exp_def, Ideal.hostNegf_def, Ideal.negf_def,
    Ideal.ofBits_def, one_f32]
  rfl

/-- The second result, the new cell state. -/
theorem cell_eq (p : Fin 8192) (q : Fin 1024) :
    val_main_v28 (F := Ideal) x0 x1 x2 x4 x5 x6 (ix2 p q) = cellAt x0 x1 x2 x4 x5 x6 p q := by
  rw [val_main_v28_apply, val_main_v26_apply, val_main_v27_apply, val_main_v10_apply, forget_eq, inGate_eq, preZ_eq]
  rfl

/-- The third result, the new normaliser. -/
theorem norm_eq (p : Fin 8192) (q : Fin 1024) :
    val_main_v30 (F := Ideal) x0 x1 x3 x4 x5 x6 (ix2 p q) = normAt x0 x1 x3 x4 x5 x6 p q := by
  rw [val_main_v30_apply, val_main_v29_apply, forget_eq, inGate_eq]
  rfl

/-- The first result, the new hidden state. -/
theorem hid_eq (p : Fin 8192) (q : Fin 1024) :
    val_main_v34 (F := Ideal) x0 x1 x2 x3 x4 x5 x6 (ix2 p q) = hidAt x0 x1 x2 x3 x4 x5 x6 p q := by
  rw [val_main_v34_apply, val_main_v33_apply, val_main_v32_apply, val_main_v31_apply, val_main_cst_4_apply, output_eq,
    cell_eq, norm_eq]
  rfl

/-- The three results as whole arrays. -/
theorem cellArr_eq : val_main_v28 (F := Ideal) x0 x1 x2 x4 x5 x6 = cellArr x0 x1 x2 x4 x5 x6 :=
  funext fun j => by rw [eq_ix2 j]; exact cell_eq x0 x1 x2 x4 x5 x6 (j 0) (j 1)

theorem normArr_eq : val_main_v30 (F := Ideal) x0 x1 x3 x4 x5 x6 = normArr x0 x1 x3 x4 x5 x6 :=
  funext fun j => by rw [eq_ix2 j]; exact norm_eq x0 x1 x3 x4 x5 x6 (j 0) (j 1)

theorem hidArr_eq : val_main_v34 (F := Ideal) x0 x1 x2 x3 x4 x5 x6 = hidArr x0 x1 x2 x3 x4 x5 x6 :=
  funext fun j => by rw [eq_ix2 j]; exact hid_eq x0 x1 x2 x3 x4 x5 x6 (j 0) (j 1)

end Cert.ReferenceIdeal.RefCell

end
-- ==== Proof.lean ====
/-
  The kernel computes one step of an exponentially gated recurrent cell on a batch of `8192` rows, `256` rows per
  grid point: it writes the point's input block `x` and hidden block `h` side by side into a scratch buffer, takes ONE
  matrix product of that `256 × 2048` row block with the weight `W` stacked on `R`, adds the bias, and applies the gates.
  The reference takes the two products `x·W` and `h·R` of the whole arrays, adds them and the bias, and applies the
  same gates with the logistic function spelt out as a quotient.

  On the extended reals both are the same function of the argument arrays, entry by entry (`Cert.Cell`): an inner
  product of length `2048` is the sum of its two halves of length `1024` — a regrouping of a finite sum, which needs
  no finiteness of the inputs —, a change of float format is the identity, the logistic function is that quotient by
  definition, and every literal (the clamp `50`, the guard `1e-6`, `1.0`) is the same float word on both sides.

  The kernel's side: what a grid point stores is the cell step of its blocks (`Pieces`, `Payload`), the blocks are
  rows of the arrays and cover them (`Blocks`). The reference's side: its run read one operation at a time
  (`RefCell`). The frames of the two kernels are the generated ones; the reference's frame is its run with the results
  dropped; the idealization rewrote nothing.
-/
import proofs.«122230_j45921790328950_2_alg».proof.Defs
import proofs.«122230_j45921790328950_2_alg».proof.Proof.Gen.Kernel
import proofs.«122230_j45921790328950_2_alg».proof.Proof.Gen.Kernel.Skeleton
import proofs.«122230_j45921790328950_2_alg».proof.Proof.Gen.Kernel.Launch
import proofs.«122230_j45921790328950_2_alg».proof.Proof.Gen.Kernel.Points
import proofs.«122230_j45921790328950_2_alg».proof.Proof.Gen.Kernel.Frame
import proofs.«122230_j45921790328950_2_alg».proof.Proof.Gen.KernelIdeal
import proofs.«122230_j45921790328950_2_alg».proof.Proof.Gen.KernelIdeal.Skeleton
import proofs.«122230_j45921790328950_2_alg».proof.Proof.Gen.KernelIdeal.Launch
import proofs.«122230_j45921790328950_2_alg».proof.Proof.Gen.KernelIdeal.Points
import proofs.«122230_j45921790328950_2_alg».proof.Proof.Gen.KernelIdeal.Frame
import proofs.«122230_j45921790328950_2_alg».proof.Proof.Gen.ReferenceIdeal
import proofs.«122230_j45921790328950_2_alg».proof.Proof.Gen.Pre_finite_inputs
import proofs.«122230_j45921790328950_2_alg».proof.Proof.Gen.KernelIdeal.Value
import proofs.«122230_j45921790328950_2_alg».proof.Proof.Gen.ReferenceIdeal.Run
import proofs.«122230_j45921790328950_2_alg».proof.Proof.Gen.ReferenceIdeal.Read
import proofs.«122230_j45921790328950_2_alg».proof.Proof.Blocks
import proofs.«122230_j45921790328950_2_alg».proof.Proof.RefCell
import Idealize.ShloMosaic.Adequacy
import Idealize.ShloMosaic.Init

noncomputable section

namespace Cert.Proof

open Idealize.ShloMosaic Idealize.ShloMosaic.TcCoe Idealize.SL.Sem Cert.Cell

theorem frame_k : Cert.frame_Kernel := fun m ρ _ => Cert.Kernel.Gen.frame m ρ

theorem frame_ki : Cert.frame_KernelIdeal := fun m ρ _ => Cert.KernelIdeal.Gen.frame m ρ

/-- The reference's run with its results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the three results at the cell step of the argument arrays. -/
theorem algebraic : Cert.algebraic_KernelIdeal_ReferenceIdeal := by
  intro m ρ m' ρ' _ hagree
  refine ⟨fun c => hidArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => normArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.CellValue.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v34_eq, Cert.ReferenceIdeal.RefCell.hidArr_eq, (hagree c).1,
      (hagree c).2.1, (hagree c).2.2.1, (hagree c).2.2.2.1, (hagree c).2.2.2.2.1, (hagree c).2.2.2.2.2.1,
      (hagree c).2.2.2.2.2.2]
  · rw [(h c).2.1, Cert.ReferenceIdeal.Read.val_main_v28_eq, Cert.ReferenceIdeal.RefCell.cellArr_eq, (hagree c).1,
      (hagree c).2.1, (hagree c).2.2.1, (hagree c).2.2.2.2.1, (hagree c).2.2.2.2.2.1, (hagree c).2.2.2.2.2.2]
  · rw [(h c).2.2.1, Cert.ReferenceIdeal.Read.val_main_v30_eq, Cert.ReferenceIdeal.RefCell.normArr_eq, (hagree c).1,
      (hagree c).2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
